-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S4x2048 : Shape := ⟨2, ![4, 2048]⟩
abbrev S4 : Shape := ⟨1, ![4]⟩
abbrev S_ : Shape := ⟨0, ![]⟩
abbrev S16384 : Shape := ⟨1, ![16384]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S4 : S_.BroadcastsInDim S4 (![] : Fin 0 → Fin S4.rank)
  reducesTo_S4_S_d0 : S4.ReducesTo [0] S_
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v15 : FVec F S16384 .f32) (main_cst_5 : FVec F S_ .f32) : IVec S_ 1 :=
  let main_v16 : FVec F S16384 .f32 := broadcastInDim S16384 ![] bcast_S_S16384 main_cst_5
  let main_v17 : IVec S16384 1 := cmpf .ogt main_v15 main_v16
  let main_c_6 : IVec S_ 1 := constantI S_ 1 1#1
  let main_v18 : IVec S_ 1 := (fun x v => Host.reduce IntOp.andi x v reducesTo_S16384_S_d0 h_S_) main_v17 main_c_6
  let main_v19 : IVec S_ 1 := andi main_v13 main_v18
  main_v19

def fn {F : FTy → Type} [FloatOps F] (main_arg0 : FVec F S16384x2048 .f32) (main_arg1 : FVec F S4x2048 .f32) (main_arg2 : FVec F S4 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S16384x2048 .f32 := mulf main_arg0 main_arg0
  let main_cst_4 : FVec F S_ .f32 := constant S_ .f32 0x00000000#32
  let main_v15 : FVec F S16384 .f32 := (fun x v => Host.reduceAdd x v reducesTo_S16384x2048_S16384_d1 h_S_) main_v14 main_cst_4
  let main_cst_5 : FVec F S_ .f32 := constant S_ .f32 0x00000000#32
  fn_part1 (F := F) main_v13 main_v15 main_cst_5
-- ==== Kernel.lean ====
abbrev S16384x2048 : Shape := ⟨2, ![16384, 2048]⟩
abbrev S4x2048 : Shape := ⟨2, ![4, 2048]⟩
abbrev S4 : Shape := ⟨1, ![4]⟩
abbrev S2048x4 : Shape := ⟨2, ![2048, 4]⟩
abbrev S1x4 : Shape := ⟨2, ![1, 4]⟩
abbrev S16384x4 : Shape := ⟨2, ![16384, 4]⟩
abbrev S1024x2048 : Shape := ⟨2, ![1024, 2048]⟩
abbrev S1024x4 : Shape := ⟨2, ![1024, 4]⟩
abbrev S1024 : Shape := ⟨1, ![1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4, .f32⟩
  | .hbm, ⟨3, _⟩ => ⟨S2048x4, .f32⟩
  | .hbm, ⟨4, _⟩ => ⟨S1x4, .f32⟩
  | .hbm, ⟨5, _⟩ => ⟨S16384x4, .f32⟩
  | .local _ .vmem, ⟨0, _⟩ => ⟨S1024x2048, .f32⟩
  | .local _ .vmem, ⟨1, _⟩ => ⟨S1024x2048, .f32⟩
  | .local _ .vmem, ⟨2, _⟩ => ⟨S2048x4, .f32⟩
  | .local _ .vmem, ⟨3, _⟩ => ⟨S1x4, .f32⟩
  | .local _ .vmem, ⟨4, _⟩ => ⟨S1024x4, .f32⟩
  | .local _ .vmem, ⟨5, _⟩ => ⟨S1024x4, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x2048_S2048x4_1_0 : S4x2048.Transposes [1, 0] S2048x4
  shapeCasts_S4_S1x4 : S4.ShapeCasts S1x4
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bitsLt_bf16_f32 : FTy.bits .bf16 < FTy.bits .f32
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  broadcasts_S1024x1_S1024x4 : S1024x1.Broadcasts S1024x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1024x4 : S1x4.Broadcasts S1024x4
  inb_S1024x4_S1024x4_0_0 : ∀ a, (![0, 0] : Fin 2 → Nat) a + S1024x4.size a ≤ S1024x4.size a
  h_S1024x4 : 0 < S1024x4.numel
  dot_S1024x2048_S2048x4_S1024x4_1_0_0_1_n_n_wf : DotDims.WF S1024x2048 S2048x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S2048x4.size a
  hwx0_1 : ∀ i : grid0.Coords, EltTy.bits .f32 = 32 ∨ (Rect.block (s := S2048x4) S2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S16384x4.size a
  hwx0_3 : ∀ i : grid0.Coords, EltTy.bits .f32 = 32 ∨ (Rect.block (s := S16384x4) S1024x4.size (cc0_transform_3 i) (hinb0_3 i)).WholeWords (EltTy.packing .f32)

variable [Facts₀]

def dot_S1024x2048_S2048x4_S1024x4_1_0_0_1_n_n : DotDims S1024x2048 S2048x4 S1024x4 where
  lhsContracting := [1]
  rhsContracting := [0]
  lhsNonContracting := [0]
  rhsNonContracting := [1]
  lhsBatch := []
  rhsBatch := []
  wf := dot_S1024x2048_S2048x4_S1024x4_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S4x2048 : Shape := ⟨2, ![4, 2048]⟩
abbrev S4 : Shape := ⟨1, ![4]⟩
abbrev S_ : Shape := ⟨0, ![]⟩
abbrev S16384 : Shape := ⟨1, ![16384]⟩
abbrev S16384x1 : Shape := ⟨2, ![16384, 1]⟩
abbrev S16384x4 : Shape := ⟨2, ![16384, 4]⟩
abbrev S1x4 : Shape := ⟨2, ![1, 4]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S16384x2048, .f32⟩
  | .hbm, ⟨9, _⟩ => ⟨S16384x2048, .f32⟩
  | .hbm, ⟨10, _⟩ => ⟨S16384x4, .f32⟩
  | .hbm, ⟨11, _⟩ => ⟨S1x4, .f32⟩
  | .hbm, ⟨12, _⟩ => ⟨S16384x4, .f32⟩
  | .hbm, ⟨13, _⟩ => ⟨S16384x4, .f32⟩
  | .hbm, ⟨14, _⟩ => ⟨S_, .f32⟩
  | .hbm, ⟨15, _⟩ => ⟨S16384x4, .f32⟩
  | .hbm, ⟨16, _⟩ => ⟨S16384x4, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  bcast_S_S16384x4 : S_.BroadcastsInDim S16384x4 (![] : Fin 0 → Fin S16384x4.rank)
  dot_S16384x2048_S4x2048_S16384x4_1_1_0_0_n_n_wf : DotDims.WF S16384x2048 S4x2048 S16384x4 [1] [1] [0] [0] [] []

variable [Facts₀]

def dot_S16384x2048_S4x2048_S16384x4_1_1_0_0_n_n : DotDims S16384x2048 S4x2048 S16384x4 where
  lhsContracting := [1]
  rhsContracting := [1]
  lhsNonContracting := [0]
  rhsNonContracting := [0]
  lhsBatch := []
  rhsBatch := []
  wf := dot_S16384x2048_S4x2048_S16384x4_1_1_0_0_n_n_wf

class Facts : Prop extends Facts₀ where

variable [Facts]
-- ==== Proof.Blocks.lean ====
/-
  What the kernel's tiles hold.

  The rows of the feature matrix are cut into 16 tiles of 1024 rows; tile t of the result depends on tile t of the features,
  on the whole weight matrix (handed to the kernel transposed, [2048, 4]) and on the bias (handed over as a row, [1, 4]).
  So row p of tile t is row 1024·t + p of the array, the transposed weights at (k, q) are the weights at (q, k), and the
  bias row at (0, q) is the bias at q.
-/
import proofs.«176328_j489626272200_2_alg».proof.Proof.Gen.KernelIdeal.Value
import Idealize.ShloMosaic.Lib.ValueLayout
import Idealize.ShloMosaic.Lib.ValueIdx
import Idealize.ShloMosaic.Lib.Pipeline.Value
import Idealize.ShloMosaic.Lib.StableHlo.Run

noncomputable section

namespace Cert.NormalizedLinear

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- The weights as the kernel finds them: transposed. -/
theorem staged_weights (c : Dev nD) :
    (V m c main_v0 : S2048x4.Idx → EReal)
      = transpose S2048x4 [1, 0] (m ((c : Thread nD τ).loc main_arg1)) transposes_S4x2048_S2048x4_1_0 := by
  dsimp only [Gen.V, Gen.hostOps0]
  after_results

/-- The bias as the kernel finds it: one row. -/
theorem staged_bias (c : Dev nD) :
    (V m c main_v1 : S1x4.Idx → EReal)
      = shapeCast S1x4 (m ((c : Thread nD τ).loc main_arg2)) shapeCasts_S4_S1x4 := by
  dsimp only [Gen.V, Gen.hostOps0]
  after_results
  rfl

/-- Where each window's block sits at grid point `t`: the feature tile and the result tile at block row `t`, the weights
    and the bias always at their one block (decided over the 16 points). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of feature tile `t` is row `1024·t + p` of the feature matrix. -/
theorem feature_tile (c : Dev nD) (t : Fin cfg0.N) (p : Fin 1024) (k : Fin 2048) (r : Fin 16384)
    (hr : r.val = 1024 * t.val + p.val) :
    (iblk m c 0 t : Vec Ideal S1024x2048 .f32) (ix2 p k)
      = (m ((c : Thread nD τ).loc main_arg0) : S16384x2048.Idx → EReal) (ix2 r k) := by
  obtain ⟨e0, e1, -⟩ := block_positions t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

/-- The weights' one block, at `(k, q)`, is the weight matrix at `(q, k)`. -/
theorem weights_tile (c : Dev nD) (t : Fin cfg0.N) (k : Fin 2048) (q : Fin 4) :
    (iblk m c 1 t : Vec Ideal S2048x4 .f32) (ix2 k q)
      = (m ((c : Thread nD τ).loc main_arg1) : S4x2048.Idx → EReal) (ix2 q k) := by
  obtain ⟨-, -, e0, e1, -⟩ := block_positions t
  unfold iblk
  rw [View.read_apply]
  show V m c main_v0 _ = _
  have he : ((cfg0.win 1).blk t).view.emb (ix2 k q) = (ix2 k q : S2048x4.Idx) := funext fun a => Fin.ext (by
    match a with
    | ⟨0, _⟩ => show win0_1.index t (0 : Fin 2) * 2048 + 1 * k.val = k.val; omega
    | ⟨1, _⟩ => show win0_1.index t (1 : Fin 2) * 4 + 1 * q.val = q.val; omega)
  rw [he, staged_weights]
  exact transpose_ix2_apply _ transposes_S4x2048_S2048x4_1_0 k q

/-- The bias row's one block, at `(0, q)`, is the bias at `q`. -/
theorem bias_tile (c : Dev nD) (t : Fin cfg0.N) (q : Fin 4) :
    (iblk m c 2 t : Vec Ideal S1x4 .f32) (ix2 (0 : Fin 1) q)
      = (m ((c : Thread nD τ).loc main_arg2) : S4.Idx → EReal) (ix1 q) := by
  obtain ⟨-, -, -, -, e0, e1, -⟩ := block_positions t
  unfold iblk
  rw [View.read_apply]
  show V m c main_v1 _ = _
  have he : ((cfg0.win 2).blk t).view.emb (ix2 (0 : Fin 1) q) = (ix2 (0 : Fin 1) q : S1x4.Idx) := funext fun a => Fin.ext (by
    match a with
    | ⟨0, _⟩ => show win0_2.index t (0 : Fin 2) * 1 + 1 * 0 = 0; omega
    | ⟨1, _⟩ => show win0_2.index t (1 : Fin 2) * 4 + 1 * q.val = q.val; omega)
  rw [he, staged_bias]
  exact shapeCast_a_1a_apply _ shapeCasts_S4_S1x4 (0 : Fin 1) q

/-- Entry `(p, q)` of result tile `t` is entry `(1024·t + p, q)` of the result array. -/
theorem result_tile_emb (t : Fin cfg0.N) (p : Fin 1024) (q : Fin 4) (r : Fin 16384) (hr : r.val = 1024 * t.val + p.val) :
    ((cfg0.win 3).blk t).view.emb (ix2 p q) = (ix2 r q : S16384x4.Idx) := by
  obtain ⟨-, -, -, -, -, -, e0, e1⟩ := block_positions t
  refine funext fun a => Fin.ext ?_
  match a with
  | ⟨0, _⟩ => show win0_3.index t (0 : Fin 2) * 1024 + 1 * p.val = r.val; omega
  | ⟨1, _⟩ => show win0_3.index t (1 : Fin 2) * 4 + 1 * q.val = q.val; omega

end Cert.NormalizedLinear

end
-- ==== Proof.LibRowOps.lean ====
/-
  Row-wise layout operations of a two-axis array, read at an entry; generic in the number of rows, so that one statement
  serves every tiling of a row-wise computation.

    * a column [a, 1] broadcast across b columns reads, at (p, c), the column's entry at row p;
    * a single entry [1, 1] broadcast down a rows reads that entry;
    * a vector [a] recast as a column [a, 1] reads, at (p, 0), the vector's entry p;
    * the sum of an [a, b] array along its second axis reads, at p, the sum over the b entries of row p.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type}

/-- A column broadcast across the columns. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast down the rows. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

/-- A vector recast as a column. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- The sum along the second axis, at row `p`, over the extended reals. -/
theorem lane_sum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  rw [Ideal.multiReduction_add_single]
  refine Finset.sum_congr rfl fun k _ => congrArg src ?_
  funext c
  apply Fin.ext
  match c with
  | ⟨0, _⟩ => rfl
  | ⟨1, _⟩ => rfl

end Idealize.ShloMosaic.RowOps

end
-- ==== Proof.LibDot2D.lean ====
/-
  A matrix product of a [M, K] array with a [K, N] array, contracted over the one shared axis, read at an entry of the
  result.  Over the extended reals both the product into a zero accumulator and the host's general dot product are the
  plain sum  ∑ k, lhs (i, k) * rhs (k, j).  The contraction's index type has one coordinate; the sum is re-indexed by
  that coordinate.  The lemmas take the four coordinate facts of the dimension record as hypotheses, so they apply to
  any record that contracts axis 1 of the left operand against axis 0 of the right one.
-/
import Idealize.ShloMosaic.PureOps.Ideal.Laws
import Idealize.ShloMosaic.Lib.ValueIdx

noncomputable section

open scoped BigOperators

namespace Idealize.ShloMosaic.Dot2D

open Idealize.ShloMosaic Idealize.ShloMosaic.ValueIdx

variable {M K N : ℕ}

/-- The sum over the contraction index of a rows-by-columns record is the sum over `k : Fin K` of the entries
    `(i, k)` and `(k, j)`. -/
theorem sum_contr (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (i : Fin M) (j : Fin N) :
    (∑ q : d.contr.Idx, lhs (d.lhsIdx (ix2 i j) q) * rhs (d.rhsIdx (ix2 i j) q))
      = ∑ k : Fin K, lhs (ix2 i k) * rhs (ix2 k j) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Idealize.ShloMosaic.Dot2D

end
-- ==== Proof.BodyEntry.lean ====
/-
  One tile of the kernel, read at an entry.

  A tile is 1024 rows of the feature matrix, x0 [1024, 2048], together with the whole transposed weight matrix x1 [2048, 4]
  and the bias as a row x2 [1, 4].  At the entry (p, q) of the tile's result the body computes

      ( (Σ_k x0(p,k) · x1(k,q)) · (Σ_k x0(p,k)²)^(-1/2) + x2(0,q) ) · 16 :

  the matrix product into a zero accumulator is the plain sum over the contracted axis (the narrowing of both operands to a
  shorter float format is the identity on the extended reals); the sum of squares along the row is a lane sum, recast as a
  column and broadcast back across the four columns after the reciprocal square root; the bias row is broadcast down the
  rows.
-/
import proofs.«176328_j489626272200_2_alg».proof.Proof.Gen.KernelIdeal.Skeleton
import proofs.«176328_j489626272200_2_alg».proof.Proof.LibRowOps
import proofs.«176328_j489626272200_2_alg».proof.Proof.LibDot2D
import Idealize.ShloMosaic.Lib.ValueLayout
import Idealize.ShloMosaic.Lib.Pipeline.Value
import Idealize.ShloMosaic.PureOps.Ideal.Laws

noncomputable section

open scoped BigOperators

namespace Cert.NormalizedLinear

open Cert.KernelIdeal Cert.KernelIdeal.Gen Idealize.ShloMosaic Idealize.ShloMosaic.ValueIdx

/-! ## The coordinates of the tile product's operands -/

theorem tile_lhs0 (j : S1024x4.Idx) (q : dot_S1024x2048_S2048x4_S1024x4_1_0_0_1_n_n.contr.Idx) :
    (dot_S1024x2048_S2048x4_S1024x4_1_0_0_1_n_n.lhsIdx j q 0).val = (j 0).val := by
  unfold DotDims.lhsIdx
  rw [dif_neg (show ¬(0 : Fin S1024x2048.rank) ∈ dot_S1024x2048_S2048x4_S1024x4_1_0_0_1_n_n.lhsBatch by decide),
    dif_pos (show (0 : Fin S1024x2048.rank) ∈ dot_S1024x2048_S2048x4_S1024x4_1_0_0_1_n_n.lhsNonContracting by decide)]
  rfl

theorem tile_lhs1 (j : S1024x4.Idx) (q : dot_S1024x2048_S2048x4_S1024x4_1_0_0_1_n_n.contr.Idx) :
    (dot_S1024x2048_S2048x4_S1024x4_1_0_0_1_n_n.lhsIdx j q 1).val = (q ⟨0, by decide⟩).val :=
  dot_S1024x2048_S2048x4_S1024x4_1_0_0_1_n_n.lhsIdx_val_of_single rfl j q

theorem tile_rhs0 (j : S1024x4.Idx) (q : dot_S1024x2048_S2048x4_S1024x4_1_0_0_1_n_n.contr.Idx) :
    (dot_S1024x2048_S2048x4_S1024x4_1_0_0_1_n_n.rhsIdx j q 0).val = (q ⟨0, by decide⟩).val :=
  dot_S1024x2048_S2048x4_S1024x4_1_0_0_1_n_n.rhsIdx_val_of_single rfl j q

theorem tile_rhs1 (j : S1024x4.Idx) (q : dot_S1024x2048_S2048x4_S1024x4_1_0_0_1_n_n.contr.Idx) :
    (dot_S1024x2048_S2048x4_S1024x4_1_0_0_1_n_n.rhsIdx j q 1).val = (j 1).val := by
  unfold DotDims.rhsIdx
  rw [dif_neg (show ¬(1 : Fin S2048x4.rank) ∈ dot_S1024x2048_S2048x4_S1024x4_1_0_0_1_n_n.rhsBatch by decide),
    dif_pos (show (1 : Fin S2048x4.rank) ∈ dot_S1024x2048_S2048x4_S1024x4_1_0_0_1_n_n.rhsNonContracting by decide)]
  rfl

/-! ## The tile's result at an entry -/

theorem body_entry (x0 : Vec Ideal S1024x2048 .f32) (x1 : Vec Ideal S2048x4 .f32) (x2 : Vec Ideal S1x4 .f32)
    (p : Fin 1024) (q : Fin 4) :
    k0_pay1 (F := Ideal) x0 x1 x2 (ix2 p q)
      = ((∑ k : Fin 2048, x0 (ix2 p k) * x1 (ix2 k q)) * Ideal.rsqrt (∑ k : Fin 2048, x0 (ix2 p k) * x0 (ix2 p k))
          + x2 (ix2 (0 : Fin 1) q)) * Ideal.ofBits .f32 0x41800000#32 := by
  unfold k0_pay1
  dsimp only
  rw [mulf_apply, addf_apply, mulf_apply, broadcast_apply]
  refine congrArg₂ (· * ·) (congrArg₂ (· + ·) (congrArg₂ (· * ·) ?_ ?_) ?_) rfl
  · -- the product of the tile with the transposed weights, into a zero accumulator
    refine (Ideal.matmul_constant_zero_apply dot_S1024x2048_S2048x4_S1024x4_1_0_0_1_n_n none _ _ (ix2 p q)).trans ?_
    refine (Dot2D.sum_contr dot_S1024x2048_S2048x4_S1024x4_1_0_0_1_n_n rfl rfl tile_lhs0 tile_lhs1 tile_rhs0 tile_rhs1
      _ _ p q).trans ?_
    exact Finset.sum_congr rfl fun k _ =>
      congrArg (x0 (ix2 p k) * ·) (congrFun (shapeCast_self x1 shapeCasts_S2048x4_S2048x4) (ix2 k q))
  · -- the reciprocal root of the row's sum of squares, a column broadcast across the four columns
    refine (RowOps.broadcastTo_a1_ab_apply _ broadcasts_S1024x1_S1024x4 p q).trans ?_
    show Ideal.rsqrt (shapeCast S1024x1 _ shapeCasts_S1024_S1024x1 (ix2 p (0 : Fin 1))) = _
    refine congrArg Ideal.rsqrt ((RowOps.shapeCast_a_a1_apply _ shapeCasts_S1024_S1024x1 p).trans ?_)
    exact RowOps.lane_sum_apply (mulf x0 x0) _ reduces_S1024x2048_S1024 _ _ p
  · -- the bias row, broadcast down the rows
    exact (broadcastTo_1b_ab_apply _ broadcasts_S1x4_S1024x4 p q).trans
      (congrFun (shapeCast_self x2 shapeCasts_S1x4_S1x4) (ix2 (0 : Fin 1) q))

end Cert.NormalizedLinear

end
-- ==== Proof.Spec.lean ====
/-
  The function both programs compute, entry by entry, and the law that joins their two arrangements of it.

  For a feature matrix x [16384, 2048], a weight matrix w [4, 2048] and a bias b [4], the entry (r, c) of the result is

      ( (Σ_k x(r,k) · w(c,k)) · (Σ_k x(r,k)²)^(-1/2) + b(c) ) · 16 .

  One program scales the finished dot product of row r by the reciprocal square root of the row's sum of squares; the
  other first divides every entry of the row by the square root of that sum and then takes the dot product.  For a row of
  real numbers whose sum of squares s is positive both are real arithmetic: 1/√s is a real factor common to every term
  of the sum, and it moves out of the sum by distributivity.  On the extended reals this needs the row and the weights to
  be real (a product with an infinity does not distribute) and s ≠ 0 (the quotient 0/0 and the reciprocal root of 0 are
  different conventional values).
-/
import Idealize.ShloMosaic.PureOps.Ideal.Laws
import Idealize.ShloMosaic.Lib.ValueIdx

noncomputable section

open scoped BigOperators

namespace Cert.NormalizedLinear

open Idealize.ShloMosaic Idealize.ShloMosaic.ValueIdx

/-- The sum of the squares of row `r`. -/
def rowSumSq (x : (⟨2, ![16384, 2048]⟩ : Shape).Idx → EReal) (r : Fin 16384) : EReal :=
  ∑ k : Fin 2048, x (ix2 r k) * x (ix2 r k)

/-- The dot product of row `r` of `x` with row `c` of `w`. -/
def rowDot (x : (⟨2, ![16384, 2048]⟩ : Shape).Idx → EReal) (w : (⟨2, ![4, 2048]⟩ : Shape).Idx → EReal)
    (r : Fin 16384) (c : Fin 4) : EReal :=
  ∑ k : Fin 2048, x (ix2 r k) * w (ix2 c k)

/-- The entry `(r, c)` of the result: the dot product scaled by the reciprocal root of the row's sum of squares, plus the
    bias, times the scale 16 (kept as its binary word: both programs carry the same one). -/
def entry (x : (⟨2, ![16384, 2048]⟩ : Shape).Idx → EReal) (w : (⟨2, ![4, 2048]⟩ : Shape).Idx → EReal)
    (b : (⟨1, ![4]⟩ : Shape).Idx → EReal) (r : Fin 16384) (c : Fin 4) : EReal :=
  (rowDot x w r c * Ideal.rsqrt (rowSumSq x r) + b (ix1 c)) * Ideal.ofBits .f32 0x41800000#32

/-- The whole result array. -/
def G (x : (⟨2, ![16384, 2048]⟩ : Shape).Idx → EReal) (w : (⟨2, ![4, 2048]⟩ : Shape).Idx → EReal)
    (b : (⟨1, ![4]⟩ : Shape).Idx → EReal) : (⟨2, ![16384, 4]⟩ : Shape).Idx → EReal :=
  fun j => entry x w b (j 0) (j 1)

theorem G_apply (x : (⟨2, ![16384, 2048]⟩ : Shape).Idx → EReal) (w : (⟨2, ![4, 2048]⟩ : Shape).Idx → EReal)
    (b : (⟨1, ![4]⟩ : Shape).Idx → EReal) (r : Fin 16384) (c : Fin 4) : G x w b (ix2 r c) = entry x w b r c := rfl

/-! ## The law -/

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real `a_k`, `u_k` with `s = Σ a_k² > 0`: dividing every `a_k` by `√s` before the dot product with `u` is scaling the
    dot product by `(√s)⁻¹` — in the extended reals' operations, which on these arguments are the real ones. -/
theorem div_then_dot_eq_dot_then_scale {ι : Type*} [Fintype ι] (a u : ι → ℝ) (hs : 0 < ∑ k, a k * a k) :
    (∑ k, Ideal.div (a k : EReal) (Ideal.sqrt (0 + ∑ k', (a k' : EReal) * (a k' : EReal))) * (u k : EReal))
      = (∑ k, (a k : EReal) * (u k : EReal)) * Ideal.rsqrt (∑ k', (a k' : EReal) * (a k' : EReal)) := by
  have hS : (∑ k', (a k' : EReal) * (a k' : EReal)) = ((∑ k', a k' * a k' : ℝ) : EReal) := by
    rw [coe_sum]; exact Finset.sum_congr rfl fun k _ => (EReal.coe_mul _ _).symm
  have hroot : Real.sqrt (∑ k', a k' * a k') ≠ 0 := (Real.sqrt_pos.2 hs).ne'
  rw [zero_add, hS, Ideal.sqrt_coe, if_neg (not_lt.2 hs.le), Ideal.rsqrt_coe, if_neg (not_lt.2 hs.le), if_neg hs.ne']
  have hterm : ∀ k, Ideal.div (a k : EReal) ((Real.sqrt (∑ k', a k' * a k') : ℝ) : EReal) * (u k : EReal)
      = ((a k * (1 / Real.sqrt (∑ k', a k' * a k')) * u k : ℝ) : EReal) := fun k => by
    rw [Ideal.div_coe hroot, ← EReal.coe_mul, ← EReal.coe_mul]
  have hdot : (∑ k, (a k : EReal) * (u k : EReal)) = ((∑ k, a k * u k : ℝ) : EReal) := by
    rw [coe_sum]; exact Finset.sum_congr rfl fun k _ => (EReal.coe_mul _ _).symm
  rw [Finset.sum_congr rfl fun k _ => hterm k, ← coe_sum, hdot, ← EReal.coe_mul]
  refine congrArg _ ?_
  rw [Finset.sum_mul]
  exact Finset.sum_congr rfl fun k _ => by ring

/-- The same at an entry of the arrays: for a real row `r` of `x` with a positive sum of squares and a real row `c` of `w`. -/
theorem div_then_dot_entry (x : (⟨2, ![16384, 2048]⟩ : Shape).Idx → EReal) (w : (⟨2, ![4, 2048]⟩ : Shape).Idx → EReal)
    (r : Fin 16384) (c : Fin 4) (hx : ∀ k : Fin 2048, ∃ a : ℝ, x (ix2 r k) = (a : EReal))
    (hw : ∀ k : Fin 2048, ∃ u : ℝ, w (ix2 c k) = (u : EReal)) (hpos : 0 < rowSumSq x r) :
    (∑ k : Fin 2048, Ideal.div (x (ix2 r k)) (Ideal.sqrt (0 + rowSumSq x r)) * w (ix2 c k))
      = rowDot x w r c * Ideal.rsqrt (rowSumSq x r) := by
  choose a ha using hx
  choose u hu using hw
  have hS : rowSumSq x r = ∑ k : Fin 2048, (a k : EReal) * (a k : EReal) :=
    Finset.sum_congr rfl fun k _ => by rw [ha k]
  have hs : 0 < ∑ k : Fin 2048, a k * a k := by
    have h := hpos
    rw [hS, Finset.sum_congr rfl fun k _ => (EReal.coe_mul (a k) (a k)).symm, ← coe_sum] at h
    exact_mod_cast h
  have e1 : (∑ k : Fin 2048, Ideal.div (x (ix2 r k)) (Ideal.sqrt (0 + rowSumSq x r)) * w (ix2 c k))
      = ∑ k : Fin 2048, Ideal.div (a k : EReal) (Ideal.sqrt (0 + ∑ k' : Fin 2048, (a k' : EReal) * (a k' : EReal))) * (u k : EReal) :=
    Finset.sum_congr rfl fun k _ => by rw [ha k, hu k, hS]
  have e2 : rowDot x w r c = ∑ k : Fin 2048, (a k : EReal) * (u k : EReal) :=
    Finset.sum_congr rfl fun k _ => by rw [ha k, hu k]
  rw [e1, e2, hS]
  exact div_then_dot_eq_dot_then_scale a u hs

end Cert.NormalizedLinear

end
-- ==== Proof.KernelValue.lean ====
/-
  The kernel's result array is `G` of its three arguments.

  At grid point t the kernel writes back tile t of the result; by the tile's arithmetic read at an entry and by what each
  tile holds, the entry (p, q) of that tile is the entry (1024·t + p, q) of `G`.  The 16 tiles cover all 16384 rows
  (row r lies in tile r / 1024), so after the run the result array is `G` everywhere.
-/
import proofs.«176328_j489626272200_2_alg».proof.Proof.Blocks
import proofs.«176328_j489626272200_2_alg».proof.Proof.BodyEntry
import proofs.«176328_j489626272200_2_alg».proof.Proof.Spec

noncomputable section

open scoped BigOperators

namespace Cert.NormalizedLinear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What grid point `t` writes back is block `t` of `G` of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1024x2048) zero_offsets, View.ld_unit_zero (S := S2048x4) zero_offsets,
    View.ld_unit_zero (S := S1x4) zero_offsets]
  refine funext fun (y : S1024x4.Idx) => ?_
  obtain ⟨p, q, rfl⟩ : ∃ (p : Fin 1024) (q : Fin 4), y = ix2 p q := ⟨y 0, y 1, eq_ix2 y⟩
  have hN : t.val < 16 := lt_of_lt_of_eq t.isLt N_0
  have hr : (⟨1024 * t.val + p.val, by have := p.isLt; omega⟩ : Fin 16384).val = 1024 * t.val + p.val := rfl
  show k0_pay1 (iblk m c 0 t) (iblk m c 1 t) (iblk m c 2 t) (ix2 p q) = G _ _ _ (((cfg0.win 3).blk t).view.emb (ix2 p q))
  rw [result_tile_emb t p q _ hr, G_apply]
  refine (body_entry (iblk m c 0 t) (iblk m c 1 t) (iblk m c 2 t) p q).trans ?_
  unfold entry rowDot rowSumSq
  refine congrArg₂ (· * ·) (congrArg₂ (· + ·) (congrArg₂ (· * ·) ?_ (congrArg Ideal.rsqrt ?_)) ?_) rfl
  · exact Finset.sum_congr rfl fun k _ => congrArg₂ (· * ·) (feature_tile m c t p k _ hr) (weights_tile m c t k q)
  · exact Finset.sum_congr rfl fun k _ => congrArg₂ (· * ·) (feature_tile m c t p k _ hr) (feature_tile m c t p k _ hr)
  · exact bias_tile m c t q

/-- Every entry of the result array lies in some tile that is written back: row `r` in tile `r / 1024`. -/
theorem covered (i : S16384x4.Idx) :
    ∃ t : Fin cfg0.N, (cfg0.win 3).flush t = true ∧ i ∈ ((cfg0.win 3).blk t).view.set := by
  have h0 : (i 0).val < 16384 := (i 0).isLt
  have h1 : (i 1).val < 4 := (i 1).isLt
  have hlt : (i 0).val / 1024 < cfg0.N := by show _ < grid0.N; rw [N_0]; omega
  obtain ⟨-, -, -, -, -, -, e0, e1⟩ := block_positions ⟨(i 0).val / 1024, hlt⟩
  refine ⟨⟨(i 0).val / 1024, hlt⟩, flush0_3 _, ?_⟩
  show i ∈ ((View.whole main_v2).slice (win0_3.rect ⟨(i 0).val / 1024, hlt⟩)).set
  rw [View.set_slice_whole, Rect.mem_set_unit]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    have e0' : win0_3.index ⟨(i 0).val / 1024, hlt⟩ (0 : Fin 2) = (i 0).val / 1024 := e0
    omega
  | ⟨1, _⟩ =>
    show win0_3.index ⟨(i 0).val / 1024, hlt⟩ (1 : Fin 2) * 4 ≤ (i 1).val
      ∧ (i 1).val < win0_3.index ⟨(i 0).val / 1024, hlt⟩ (1 : Fin 2) * 4 + 4
    omega

/-- After the run the result array is `G` of the argument arrays. -/
theorem final_array (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it terminates without a fault, the result array at `G` of the arguments, the arguments unchanged. -/
theorem kernel_run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_array m c), (h c).2⟩)
    (Cert.KernelIdeal.Value.run_blocks m ρ)

end Cert.NormalizedLinear

end
-- ==== Proof.RefEntry.lean ====
/-
  The reference, read at an entry.

  The reference normalizes first: it divides every entry of row r of the feature matrix by the square root of the row's
  sum of squares, then contracts the normalized row with row c of the weight matrix, adds the bias at c and scales by 16.
  Its sum of squares starts from the constant zero.
-/
import proofs.«176328_j489626272200_2_alg».proof.Proof.Gen.ReferenceIdeal.Read
import proofs.«176328_j489626272200_2_alg».proof.Proof.Spec

noncomputable section

open scoped BigOperators

namespace Cert.NormalizedLinear

open Cert.ReferenceIdeal Cert.ReferenceIdeal.Gen Cert.ReferenceIdeal.Read Idealize.ShloMosaic Idealize.ShloMosaic.ValueIdx

theorem reference_entry (x0 : S16384x2048.Idx → EReal) (x1 : S4x2048.Idx → EReal) (x2 : S4.Idx → EReal)
    (r : Fin 16384) (c : Fin 4) :
    val_main_v11 (F := Ideal) x0 x1 x2 (ix2 r c)
      = ((∑ k : Fin 2048, Ideal.div (x0 (ix2 r k)) (Ideal.sqrt (0 + rowSumSq x0 r)) * x1 (ix2 c k)) + x2 (ix1 c))
          * Ideal.ofBits .f32 0x41800000#32 := by
  have el : ∀ k : Fin 2048, lidx_main_v6 (ix2 r c) k = ix2 r k := fun k =>
    funext fun a => Fin.ext (by match a with | ⟨0, _⟩ => rfl | ⟨1, _⟩ => rfl)
  have er : ∀ k : Fin 2048, ridx_main_v6 (ix2 r c) k = ix2 c k := fun k =>
    funext fun a => Fin.ext (by match a with | ⟨0, _⟩ => rfl | ⟨1, _⟩ => rfl)
  have e4 : ∀ k : Fin 2048, idx_main_v4 (ix2 r k) = ix2 r (0 : Fin 1) := fun k =>
    funext fun a => Fin.ext (by match a with | ⟨0, _⟩ => rfl | ⟨1, _⟩ => rfl)
  have e2 : idx_main_v2 (ix2 r (0 : Fin 1)) = ix1 r :=
    funext fun a => Fin.ext (by match a with | ⟨0, _⟩ => rfl)
  have e1 : ∀ k : Fin 2048, idx_main_v1 (ix1 r) k = ix2 r k := fun k =>
    funext fun a => Fin.ext (by match a with | ⟨0, _⟩ => rfl | ⟨1, _⟩ => rfl)
  have e8 : idx_main_v7 (idx_main_v8 (ix2 r c)) = ix1 c :=
    funext fun a => Fin.ext (by match a with | ⟨0, _⟩ => rfl)
  rw [val_main_v11_apply, val_main_v9_apply, val_main_v6_apply, val_main_v8_apply, val_main_v7_apply, val_main_v10_apply,
    val_main_cst_0_apply, e8]
  simp only [el, er, val_main_v5_apply, val_main_v4_apply, e4, val_main_v3_apply, val_main_v2_apply, e2,
    val_main_v1_apply, val_main_cst_apply, val_main_v0_apply, e1, Ideal.hostDivf_def, Ideal.hostUnary_sqrt_def,
    Ideal.mulf_def, Ideal.addf_def, Ideal.ofBits_def, Ideal.ofBits_zero_f32]
  rfl

end Cert.NormalizedLinear

end
-- ==== Proof.Domain.lean ====
/-
  What the precondition says of the arguments.

  The precondition is the conjunction of four tests, each a conjunction over a whole array: every entry of the feature matrix,
  of the weight matrix and of the bias is smaller in absolute value than +infinity, and every row of the feature matrix has
  a positive sum of squares.  An extended real smaller in absolute value than +infinity is a real number.
-/
import proofs.«176328_j489626272200_2_alg».proof.Proof.Gen.Pre_finite_inputs
import proofs.«176328_j489626272200_2_alg».proof.Proof.Spec
import Idealize.ShloMosaic.Lib.ReduceAll
import Idealize.ShloMosaic.Lib.ValueIdx
import Idealize.ShloMosaic.PureOps.Ideal.Laws

noncomputable section

open scoped BigOperators

namespace Cert.NormalizedLinear

open Idealize.ShloMosaic Idealize.ShloMosaic.ValueIdx Cert.Pre_finite_inputs Cert.Pre_finite_inputs.Facts

instance : Subsingleton S_.Idx := ⟨fun a b => funext fun d => d.elim0⟩

/-- A comparison "less than" that answered 1 is the order relation. -/
theorem lt_of_cmp_olt {x y : EReal} (h : Ideal.cmp .olt x y = 1#1) : x < y := by
  by_contra hn
  simp [Ideal.cmp, hn] at h

/-- A comparison "greater than" that answered 1 is the order relation, turned round. -/
theorem lt_of_cmp_ogt {x y : EReal} (h : Ideal.cmp .ogt x y = 1#1) : y < x := by
  by_contra hn
  simp [Ideal.cmp, hn] at h

/-- The word 0x7F800000 denotes +infinity. -/
theorem ofBits_inf : Ideal.ofBits .f32 0x7F800000#32 = ⊤ := by simp [Ideal.ofBits, Ideal.ieee]

/-- An extended real whose absolute value is below +infinity is a real number. -/
theorem real_of_abs_lt_inf (x : EReal) (h : max x (-x) < ⊤) : ∃ a : ℝ, x = (a : EReal) := by
  induction x using EReal.rec with
  | bot => simp at h
  | coe a => exact ⟨a, rfl⟩
  | top => simp at h

/-- The host's sum along the second axis, from an initial value, read at row `r`. -/
theorem row_sum_apply (y : S16384x2048.Idx → EReal) (init : S_.Idx → EReal) (r : Fin 16384) :
    Host.reduceAdd (F := Ideal) (φ := .f32) y init reducesTo_S16384x2048_S16384_d1 h_S_ (ix1 r)
      = init (Shape.Idx.first h_S_) + ∑ k : Fin 2048, y (ix2 r k) := by
  simp only [Host.reduceAdd, Ideal.hostReduceAdd_def]
  rw [Ideal.hostReduceAdd_single reducesTo_S16384x2048_S16384_d1 (by decide)]
  refine congrArg (_ + ·) (Finset.sum_congr rfl fun k _ => ?_)
  exact congrArg y (funext fun a => Fin.ext (by match a with | ⟨0, _⟩ => rfl | ⟨1, _⟩ => rfl))

/-- Under the precondition the feature matrix and the weight matrix hold real numbers, and every row of the feature matrix
    has a positive sum of squares. -/
theorem domain (x0 : S16384x2048.Idx → EReal) (x1 : S4x2048.Idx → EReal) (x2 : S4.Idx → EReal)
    (h : Cert.Pre_finite_inputs.fn (F := Ideal) x0 x1 x2 = fun _ => 1#1) :
    (∀ i, ∃ a : ℝ, x0 i = (a : EReal)) ∧ (∀ i, ∃ u : ℝ, x1 i = (u : EReal)) ∧ (∀ r : Fin 16384, 0 < rowSumSq x0 r) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun r => ?_⟩
  · have e : FloatOps.cmpf (F := Ideal) (φ := .f32) .olt (FloatOps.hostAbsf (x0 i)) (FloatOps.ofBits .f32 0x7F800000#32) = 1#1 :=
      Host.reduce_andi_all _ _ _ _ ix0 h1 i
    rw [Ideal.cmpf_def, Ideal.hostAbsf_def, Ideal.absf_def, Ideal.ofBits_def, ofBits_inf] at e
    exact real_of_abs_lt_inf _ (lt_of_cmp_olt e)
  · have e : FloatOps.cmpf (F := Ideal) (φ := .f32) .olt (FloatOps.hostAbsf (x1 i)) (FloatOps.ofBits .f32 0x7F800000#32) = 1#1 :=
      Host.reduce_andi_all _ _ _ _ ix0 h2 i
    rw [Ideal.cmpf_def, Ideal.hostAbsf_def, Ideal.absf_def, Ideal.ofBits_def, ofBits_inf] at e
    exact real_of_abs_lt_inf _ (lt_of_cmp_olt e)
  · have e : FloatOps.cmpf (F := Ideal) (φ := .f32) .ogt
        (Host.reduceAdd (F := Ideal) (φ := .f32) (mulf x0 x0) (constant S_ .f32 0x00000000#32) reducesTo_S16384x2048_S16384_d1 h_S_ (ix1 r))
        (FloatOps.ofBits .f32 0x00000000#32) = 1#1 :=
      Host.reduce_andi_all _ _ _ _ ix0 h4 (ix1 r)
    rw [Ideal.cmpf_def, row_sum_apply] at e
    have e' := lt_of_cmp_ogt e
    rw [Ideal.ofBits_def, Ideal.ofBits_zero_f32] at e'
    have e'' : (0 : EReal) < 0 + ∑ k : Fin 2048, x0 (ix2 r k) * x0 (ix2 r k) := by
      refine lt_of_lt_of_eq e' (congrArg₂ (· + ·) ?_ rfl)
      exact Ideal.ofBits_zero_f32
    rwa [zero_add] at e''

end Cert.NormalizedLinear

end
-- ==== Proof.Bridge.lean ====
/-
  Under the precondition the reference computes `G`.

  At the entry (r, c) the reference's value is the dot product of the normalized row r with row c of the weights, plus the
  bias, times 16.  The precondition makes row r and the weights real and the row's sum of squares positive, so the
  normalized dot product is the dot product scaled by the reciprocal root of the sum of squares — the form `G` has.
-/
import proofs.«176328_j489626272200_2_alg».proof.Proof.RefEntry
import proofs.«176328_j489626272200_2_alg».proof.Proof.Domain

noncomputable section

open scoped BigOperators

namespace Cert.NormalizedLinear

open Idealize.ShloMosaic Idealize.ShloMosaic.ValueIdx

theorem reference_is_G (x0 : Cert.ReferenceIdeal.S16384x2048.Idx → EReal) (x1 : Cert.ReferenceIdeal.S4x2048.Idx → EReal)
    (x2 : Cert.ReferenceIdeal.S4.Idx → EReal) (h : Cert.Pre_finite_inputs.fn (F := Ideal) x0 x1 x2 = fun _ => 1#1) :
    Cert.ReferenceIdeal.Read.val_main_v11 (F := Ideal) x0 x1 x2 = G x0 x1 x2 := by
  obtain ⟨hx, hw, hpos⟩ := domain x0 x1 x2 h
  funext j
  obtain ⟨r, c, rfl⟩ : ∃ (r : Fin 16384) (c : Fin 4), j = ix2 r c := ⟨j 0, j 1, eq_ix2 j⟩
  rw [reference_entry, G_apply]
  unfold entry
  rw [div_then_dot_entry x0 x1 r c (fun k => hx _) (fun k => hw _) (hpos r)]

end Cert.NormalizedLinear

end
-- ==== Proof.lean ====
/- The proof of `Cert.Claim` (proofs.«176328_j489626272200_2_alg».proof.Defs).

   Both programs compute, for a feature matrix x [16384, 2048], weights w [4, 2048] and a bias b [4], the array

       G(r, c) = ( (Σ_k x(r,k) · w(c,k)) · (Σ_k x(r,k)²)^(-1/2) + b(c) ) · 16 .

   The kernel works on 16 tiles of 1024 rows: in each it takes the matrix product of the tile with the transposed weights,
   scales row p of the product by the reciprocal square root of the row's sum of squares, adds the bias and multiplies by 16
   (Proof/BodyEntry.lean: the tile's arithmetic at an entry; Proof/Blocks.lean: which rows a tile holds, and that the
   transposed weights and the bias row are the arguments re-laid; Proof/KernelValue.lean: the tiles cover the array, so the
   result array is G).  The reference first divides every row by its Euclidean norm and then takes the matrix product
   (Proof/RefEntry.lean).  For real rows with a positive sum of squares and real weights the two agree because the common
   factor 1/√s moves out of the sum (Proof/Spec.lean); the precondition provides exactly that: every input finite, every row
   with a positive sum of squares (Proof/Domain.lean, Proof/Bridge.lean).  On an all-zero row the two would differ (the
   quotient 0/0 and the reciprocal root of 0 are different conventional values on the extended reals), which is why the
   precondition excludes it.

   The three frames are the generated ones (the reference's is its generated run with the result dropped); the kernel's
   idealization rewrote nothing, so there is nothing to preserve. -/
import proofs.«176328_j489626272200_2_alg».proof.Defs
import proofs.«176328_j489626272200_2_alg».proof.Proof.Gen.Kernel
import proofs.«176328_j489626272200_2_alg».proof.Proof.Gen.Kernel.Skeleton
import proofs.«176328_j489626272200_2_alg».proof.Proof.Gen.Kernel.Launch
import proofs.«176328_j489626272200_2_alg».proof.Proof.Gen.Kernel.Points
import proofs.«176328_j489626272200_2_alg».proof.Proof.Gen.Kernel.Frame
import proofs.«176328_j489626272200_2_alg».proof.Proof.Gen.KernelIdeal
import proofs.«176328_j489626272200_2_alg».proof.Proof.Gen.KernelIdeal.Skeleton
import proofs.«176328_j489626272200_2_alg».proof.Proof.Gen.KernelIdeal.Launch
import proofs.«176328_j489626272200_2_alg».proof.Proof.Gen.KernelIdeal.Points
import proofs.«176328_j489626272200_2_alg».proof.Proof.Gen.KernelIdeal.Frame
import proofs.«176328_j489626272200_2_alg».proof.Proof.Gen.ReferenceIdeal
import proofs.«176328_j489626272200_2_alg».proof.Proof.Gen.Pre_finite_inputs
import proofs.«176328_j489626272200_2_alg».proof.Proof.Gen.KernelIdeal.Value
import proofs.«176328_j489626272200_2_alg».proof.Proof.Gen.ReferenceIdeal.Run
import proofs.«176328_j489626272200_2_alg».proof.Proof.Gen.ReferenceIdeal.Read
import proofs.«176328_j489626272200_2_alg».proof.Proof.KernelValue
import proofs.«176328_j489626272200_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the (agreeing) arguments: the kernel's always, the reference's under the
    precondition. -/
theorem algebraic : Cert.algebraic_KernelIdeal_ReferenceIdeal := by
  intro m ρ m' ρ' hpre hagree
  refine ⟨fun c => Cert.NormalizedLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.NormalizedLinear.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v11_eq _ _ _).trans (Cert.NormalizedLinear.reference_is_G _ _ _ (hpre c))

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
